-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x4096 : Shape := ⟨2, ![2048, 4096]⟩
abbrev S4096x4096 : Shape := ⟨2, ![4096, 4096]⟩
abbrev S_ : Shape := ⟨0, ![]⟩

class Facts : Prop where
  bcast_S_S2048x4096 : S_.BroadcastsInDim S2048x4096 (![] : Fin 0 → Fin S2048x4096.rank)
  reducesTo_S2048x4096_S_d0_1 : S2048x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S2048x4096 .f32) (main_arg1 : FVec F S4096x4096 .f32) : IVec S_ 1 :=
  let main_v0 : FVec F S2048x4096 .f32 := Host.absf main_arg0
  let main_cst : FVec F S_ .f32 := constant S_ .f32 0x7F800000#32
  let main_v1 : FVec F S2048x4096 .f32 := broadcastInDim S2048x4096 ![] bcast_S_S2048x4096 main_cst
  let main_v2 : IVec S2048x4096 1 := cmpf .olt main_v0 main_v1
  let main_c : IVec S_ 1 := constantI S_ 1 1#1
  let main_v3 : IVec S_ 1 := (fun x v => Host.reduce IntOp.andi x v reducesTo_S2048x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S2048x4096 : Shape := ⟨2, ![2048, 4096]⟩
abbrev S4096x4096 : Shape := ⟨2, ![4096, 4096]⟩
abbrev S2048x30x4096 : Shape := ⟨3, ![2048, 30, 4096]⟩
abbrev S256x4096 : Shape := ⟨2, ![256, 4096]⟩
abbrev S4096x256 : Shape := ⟨2, ![4096, 256]⟩
abbrev S256x30x256 : Shape := ⟨3, ![256, 30, 256]⟩
abbrev S256x256 : Shape := ⟨2, ![256, 256]⟩
abbrev S256x1x256 : Shape := ⟨3, ![256, 1, 256]⟩
abbrev S2048x122880 : Shape := ⟨2, ![2048, 122880]⟩

abbrev nBuf : Space → Nat
  | .hbm => 4
  | .vmem => 6
  | .smem => 0
  | _ => 0

abbrev bufTy : (tb : Table) → Fin (tcTables nBuf tb) → BufTy
  | .hbm, ⟨0, _⟩ => ⟨S2048x4096, .f32⟩
  | .hbm, ⟨1, _⟩ => ⟨S4096x4096, .f32⟩
  | .hbm, ⟨2, _⟩ => ⟨S2048x30x4096, .f32⟩
  | .hbm, ⟨3, _⟩ => ⟨S2048x122880, .f32⟩
  | .local _ .vmem, ⟨0, _⟩ => ⟨S256x4096, .f32⟩
  | .local _ .vmem, ⟨1, _⟩ => ⟨S256x4096, .f32⟩
  | .local _ .vmem, ⟨2, _⟩ => ⟨S4096x256, .f32⟩
  | .local _ .vmem, ⟨3, _⟩ => ⟨S4096x256, .f32⟩
  | .local _ .vmem, ⟨4, _⟩ => ⟨S256x30x256, .f32⟩
  | .local _ .vmem, ⟨5, _⟩ => ⟨S256x30x256, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x30x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S256x4096_S256x4096_0_0 : ∀ a, (![0, 0] : Fin 2 → Nat) a + S256x4096.size a ≤ S256x4096.size a
  h_S256x4096 : 0 < S256x4096.numel
  inb_S4096x256_S4096x256_0_0 : ∀ a, (![0, 0] : Fin 2 → Nat) a + S4096x256.size a ≤ S4096x256.size a
  h_S4096x256 : 0 < S4096x256.numel
  shapeCasts_S256x256_S256x1x256 : S256x256.ShapeCasts S256x1x256
  shapeCasts_S256x1x256_S256x1x256 : S256x1x256.ShapeCasts S256x1x256
  broadcasts_S256x1x256_S256x30x256 : S256x1x256.Broadcasts S256x30x256
  inb_S256x30x256_S256x30x256_0_0_0 : ∀ a, (![0, 0, 0] : Fin 3 → Nat) a + S256x30x256.size a ≤ S256x30x256.size a
  h_S256x30x256 : 0 < S256x30x256.numel
  shapeCasts_S2048x30x4096_S2048x122880 : S2048x30x4096.ShapeCasts S2048x122880
  dot_S256x4096_S4096x256_S256x256_1_0_0_1_n_n_wf : DotDims.WF S256x4096 S4096x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S2048x4096.size a
  hwx0_0 : ∀ i : grid0.Coords, EltTy.bits .f32 = 32 ∨ (Rect.block (s := S2048x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S4096x4096.size a
  hwx0_1 : ∀ i : grid0.Coords, EltTy.bits .f32 = 32 ∨ (Rect.block (s := S4096x4096) S4096x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x30x256.size a ≤ S2048x30x4096.size a
  hwx0_2 : ∀ i : grid0.Coords, EltTy.bits .f32 = 32 ∨ (Rect.block (s := S2048x30x4096) S256x30x256.size (cc0_transform_2 i) (hinb0_2 i)).WholeWords (EltTy.packing .f32)

variable [Facts₀]

def dot_S256x4096_S4096x256_S256x256_1_0_0_1_n_n : DotDims S256x4096 S4096x256 S256x256 where
  lhsContracting := [1]
  rhsContracting := [0]
  lhsNonContracting := [0]
  rhsNonContracting := [1]
  lhsBatch := []
  rhsBatch := []
  wf := dot_S256x4096_S4096x256_S256x256_1_0_0_1_n_n_wf

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x30x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2048x4096 : Shape := ⟨2, ![2048, 4096]⟩
abbrev S4096x4096 : Shape := ⟨2, ![4096, 4096]⟩
abbrev S1x2048x1x4096 : Shape := ⟨4, ![1, 2048, 1, 4096]⟩
abbrev S1x2048x30x4096 : Shape := ⟨4, ![1, 2048, 30, 4096]⟩
abbrev S2048x122880 : Shape := ⟨2, ![2048, 122880]⟩

abbrev nBuf : Space → Nat
  | .hbm => 6
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S4096x4096, .f32⟩
  | .hbm, ⟨2, _⟩ => ⟨S2048x4096, .f32⟩
  | .hbm, ⟨3, _⟩ => ⟨S1x2048x1x4096, .f32⟩
  | .hbm, ⟨4, _⟩ => ⟨S1x2048x30x4096, .f32⟩
  | .hbm, ⟨5, _⟩ => ⟨S2048x122880, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]

class Facts₀ : Prop where
  shapeCasts_S2048x4096_S1x2048x1x4096 : S2048x4096.ShapeCasts S1x2048x1x4096
  bcast_S1x2048x1x4096_S1x2048x30x4096_0_1_2_3 : S1x2048x1x4096.BroadcastsInDim S1x2048x30x4096 (![0, 1, 2, 3] : Fin 4 → Fin S1x2048x30x4096.rank)
  shapeCasts_S1x2048x30x4096_S2048x122880 : S1x2048x30x4096.ShapeCasts S2048x122880
  dot_S2048x4096_S4096x4096_S2048x4096_1_0_0_1_n_n_wf : DotDims.WF S2048x4096 S4096x4096 S2048x4096 [1] [0] [0] [1] [] []

variable [Facts₀]

def dot_S2048x4096_S4096x4096_S2048x4096_1_0_0_1_n_n : DotDims S2048x4096 S4096x4096 S2048x4096 where
  lhsContracting := [1]
  rhsContracting := [0]
  lhsNonContracting := [0]
  rhsNonContracting := [1]
  lhsBatch := []
  rhsBatch := []
  wf := dot_S2048x4096_S4096x4096_S2048x4096_1_0_0_1_n_n_wf

class Facts : Prop extends Facts₀ where

variable [Facts]
-- ==== Proof.RepeatedProduct.lean ====
/-
  The function both programs compute, over the extended reals: the matrix product of a [2048, 4096] array and a
  [4096, 4096] array, repeated 30 times side by side. Entry (i, n) of the product is the sum over k of
  a(i, k) · b(k, n); column c of the repeated result is column c mod 4096 of the product. Beside it stands the
  same product stacked along a middle axis of extent 30, and the one index identity that joins the two
  layouts: position (r, n) of a [30, 4096] slab, read row-major, is column r · 4096 + n, so the stacked array
  flattened over its last two axes is the repeated one. No law of the extended reals beyond the definition of
  the sum is used: both layouts read the same sum at each position.
-/
import Idealize.ShloMosaic.PureOps.Ideal
import Idealize.ShloMosaic.Lib.ValueIdx
import Idealize.ShloMosaic.Lib.Pipeline.Value

noncomputable section

namespace Cert.RepeatedProduct

open Idealize.ShloMosaic Idealize.ShloMosaic.ValueIdx

/-- A [2048, 4096] array of extended reals, the left factor. -/
abbrev Lhs : Type := (⟨2, ![2048, 4096]⟩ : Shape).Idx → EReal
/-- A [4096, 4096] array of extended reals, the right factor. -/
abbrev Rhs : Type := (⟨2, ![4096, 4096]⟩ : Shape).Idx → EReal

/-- Entry (i, n) of the product: the sum over k of a(i, k) · b(k, n). -/
def entry (a : Lhs) (b : Rhs) (i : Fin 2048) (n : Fin 4096) : EReal :=
  ∑ k : Fin 4096, a (ix2 i k) * b (ix2 k n)

/-- The product stacked 30 times along a middle axis: position (i, r, n) holds entry (i, n), whatever r. -/
def stacked (a : Lhs) (b : Rhs) : (⟨3, ![2048, 30, 4096]⟩ : Shape).Idx → EReal :=
  fun j => entry a b ⟨(j 0).val, (j 0).isLt⟩ ⟨(j 2).val, (j 2).isLt⟩

/-- The product repeated 30 times side by side: position (i, c) holds entry (i, c mod 4096). -/
def repeated (a : Lhs) (b : Rhs) : (⟨2, ![2048, 122880]⟩ : Shape).Idx → EReal :=
  fun i => entry a b ⟨(i 0).val, (i 0).isLt⟩ ⟨(i 1).val % 4096, Nat.mod_lt _ (by decide)⟩

/-- Flattening the last two axes of the stacked array gives the repeated one: column c of row i sits at
    slab position (c / 4096, c mod 4096), and the stacked array does not look at the first of the two. -/
theorem shapeCast_stacked (a : Lhs) (b : Rhs)
    (h : (⟨3, ![2048, 30, 4096]⟩ : Shape).ShapeCasts ⟨2, ![2048, 122880]⟩) :
    shapeCast ⟨2, ![2048, 122880]⟩ (stacked a b) h = repeated a b := by
  funext i
  have h0 : (i 0).val < 2048 := (i 0).isLt
  have h1 : (i 1).val < 122880 := (i 1).isLt
  refine (shapeCast_apply (stacked a b) h i
    (ix3 (⟨(i 0).val, h0⟩ : Fin 2048) (⟨(i 1).val / 4096, by omega⟩ : Fin 30) (⟨(i 1).val % 4096, by omega⟩ : Fin 4096)) ?_).trans ?_
  · rewrite [Shape.rowMajor_val_three, Shape.rowMajor_val_two]
    show ((i 0).val * 30 + (i 1).val / 4096) * 4096 + (i 1).val % 4096 = (i 0).val * 122880 + (i 1).val
    omega
  · rfl

end Cert.RepeatedProduct

end
-- ==== Proof.ReferenceValue.lean ====
/-
  The reference's result is the repeated product. The reference multiplies the two arguments once, views the
  [2048, 4096] product as [1, 2048, 1, 4096], broadcasts the unit axis in front of the columns to extent 30, and
  flattens to [2048, 122880]. Reading the four operations at an output position (i, c), outermost first: the
  last reshape reads slab position (c / 4096, c mod 4096) of row i, the broadcast forgets c / 4096, the first
  reshape reads the product at (i, c mod 4096), and the product there is the sum over k of x0(i, k) · x1(k, c mod 4096).
-/
import proofs.«131856_j82454782148931_2_alg».proof.Proof.Gen.ReferenceIdeal.Read
import proofs.«131856_j82454782148931_2_alg».proof.Proof.RepeatedProduct

noncomputable section

namespace Cert.ReferenceIdeal.RefValue

open Cert.ReferenceIdeal Cert.ReferenceIdeal.Read Idealize.ShloMosaic Idealize.ShloMosaic.ValueIdx Cert.RepeatedProduct

/-- The reference's last stage, as a function of the two arguments, is the repeated product. -/
theorem result_eq (x0 : (⟨S2048x4096, .f32⟩ : BufTy).Contents (Elt Ideal)) (x1 : (⟨S4096x4096, .f32⟩ : BufTy).Contents (Elt Ideal)) :
    val_main_v3 (F := Ideal) x0 x1 = repeated x0 x1 := by
  funext i
  have h0 : (i 0).val < 2048 := (i 0).isLt
  have h1 : (i 1).val < 122880 := (i 1).isLt
  rw [val_main_v3_apply, val_main_v2_apply, val_main_v1_apply, val_main_v0_apply]
  unfold repeated entry
  refine Finset.sum_congr rfl fun k _ => ?_
  -- the row read on the left is row i
  have el : lidx_main_v0 (idx_main_v1 (idx_main_v2 (idx_main_v3 i))) k = ix2 (⟨(i 0).val, (i 0).isLt⟩ : Fin 2048) k :=
    funext fun a => Fin.ext (by
      match a with
      | ⟨0, _⟩ =>
        show ((((0 * 2048 + ((i 0).val * 122880 + (i 1).val) / 122880 % 2048) * 1 + 0) * 4096 + ((i 0).val * 122880 + (i 1).val) % 4096) / 4096) = (i 0).val
        omega
      | ⟨1, _⟩ => rfl)
  -- the column read on the right is column c mod 4096
  have er : ridx_main_v0 (idx_main_v1 (idx_main_v2 (idx_main_v3 i))) k = ix2 k (⟨(i 1).val % 4096, Nat.mod_lt _ (by decide)⟩ : Fin 4096) :=
    funext fun a => Fin.ext (by
      match a with
      | ⟨0, _⟩ => rfl
      | ⟨1, _⟩ =>
        show ((((0 * 2048 + ((i 0).val * 122880 + (i 1).val) / 122880 % 2048) * 1 + 0) * 4096 + ((i 0).val * 122880 + (i 1).val) % 4096) % 4096) = (i 1).val % 4096
        omega)
  rw [el, er]

end Cert.ReferenceIdeal.RefValue

end
-- ==== Proof.TileProduct.lean ====
/-
  What the kernel body stores, read at a position of its [256, 30, 256] output block: the body multiplies its
  [256, 4096] block of the left factor by its [4096, 256] block of the right factor into a zero accumulator,
  gives the [256, 256] tile a unit middle axis, and broadcasts that axis to extent 30. So position (p, r, q) of
  what it stores is the tile's entry (p, q), whatever r: the sum over k of v0(p, k) · v1(k, q).
-/
import proofs.«131856_j82454782148931_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Tile

open Cert.KernelIdeal Cert.KernelIdeal.Gen Idealize.ShloMosaic Idealize.ShloMosaic.ValueIdx

/-- The tile product's dimension numbers: rows of the left block against columns of the right, one contracted axis. -/
abbrev D : DotDims S256x4096 S4096x256 S256x256 := dot_S256x4096_S4096x256_S256x256_1_0_0_1_n_n

/-- The left operand is read in the output's row … -/
theorem lhs_row (j : S256x256.Idx) (q : D.contr.Idx) : (D.lhsIdx j q 0).val = (j 0).val := by
  unfold DotDims.lhsIdx
  rw [dif_neg (show ¬(0 : Fin S256x4096.rank) ∈ D.lhsBatch by decide), dif_pos (show (0 : Fin S256x4096.rank) ∈ D.lhsNonContracting by decide)]
  rfl
/-- … at the contraction position, -/
theorem lhs_col (j : S256x256.Idx) (q : D.contr.Idx) : (D.lhsIdx j q 1).val = (q ⟨0, by decide⟩).val :=
  D.lhsIdx_val_of_single rfl j q
/-- and the right operand at the contraction position … -/
theorem rhs_row (j : S256x256.Idx) (q : D.contr.Idx) : (D.rhsIdx j q 0).val = (q ⟨0, by decide⟩).val :=
  D.rhsIdx_val_of_single rfl j q
/-- … in the output's column. -/
theorem rhs_col (j : S256x256.Idx) (q : D.contr.Idx) : (D.rhsIdx j q 1).val = (j 1).val := by
  unfold DotDims.rhsIdx
  rw [dif_neg (show ¬(1 : Fin S4096x256.rank) ∈ D.rhsBatch by decide), dif_pos (show (1 : Fin S4096x256.rank) ∈ D.rhsNonContracting by decide)]
  rfl

/-- Entry (p, q) of the tile: the product into a zero accumulator is the plain sum over the contracted axis. -/
theorem tile_entry (v0 : FVec Ideal S256x4096 .f32) (v1 : FVec Ideal S4096x256 .f32) (p q : Fin 256) :
    matmul D (some .fp32) v0 v1 (constant S256x256 .f32 0x00000000#32) (ix2 p q)
      = ∑ k : Fin 4096, v0 (ix2 p k) * v1 (ix2 k q) := by
  refine (Ideal.matmul_constant_zero_apply D (some .fp32) v0 v1 (ix2 p q)).trans ?_
  rw [← Equiv.sum_comp (contrEquiv1 D 4096 rfl rfl).symm]
  refine Finset.sum_congr rfl fun k _ => ?_
  have hk := contrEquiv1_symm_val D 4096 rfl rfl k
  have el : D.lhsIdx (ix2 p q) ((contrEquiv1 D 4096 rfl rfl).symm k) = ix2 p k := funext fun a => Fin.ext (by
    match a with
    | ⟨0, _⟩ => exact lhs_row _ _
    | ⟨1, _⟩ => exact (lhs_col _ _).trans hk)
  have er : D.rhsIdx (ix2 p q) ((contrEquiv1 D 4096 rfl rfl).symm k) = ix2 k q := funext fun a => Fin.ext (by
    match a with
    | ⟨0, _⟩ => exact (rhs_row _ _).trans hk
    | ⟨1, _⟩ => exact rhs_col _ _)
  rw [el, er]

/-- Position (p, r, q) of what the body stores is entry (p, q) of the tile: the broadcast forgets r, the two
    casts only insert the unit axis. -/
theorem stored_entry (v0 : Vec Ideal S256x4096 .f32) (v1 : Vec Ideal S4096x256 .f32) (p : Fin 256) (r : Fin 30) (q : Fin 256) :
    k0_pay1 (F := Ideal) v0 v1 (ix3 p r q) = ∑ k : Fin 4096, v0 (ix2 p k) * v1 (ix2 k q) := by
  unfold k0_pay1
  refine (broadcastTo_apply _ broadcasts_S256x1x256_S256x30x256 (ix3 p r q) (ix3 p (0 : Fin 1) q) (fun a => ?_)).trans ?_
  · match a with
    | ⟨0, _⟩ => show p.val = if (256 : Nat) = 1 then 0 else p.val; rw [if_neg (by decide)]
    | ⟨1, _⟩ => show 0 = if (1 : Nat) = 1 then 0 else r.val; rw [if_pos rfl]
    | ⟨2, _⟩ => show q.val = if (256 : Nat) = 1 then 0 else q.val; rw [if_neg (by decide)]
  refine (congrFun (shapeCast_self _ shapeCasts_S256x1x256_S256x1x256) _).trans ?_
  refine (shapeCast_apply _ shapeCasts_S256x256_S256x1x256 (ix3 p (0 : Fin 1) q) (ix2 p q) ?_).trans ?_
  · rewrite [Shape.rowMajor_val_two, Shape.rowMajor_val_three]
    show p.val * 256 + q.val = (p.val * 1 + 0) * 256 + q.val
    omega
  exact tile_entry v0 v1 p q

end Cert.KernelIdeal.Tile

end
-- ==== Proof.KernelBlocks.lean ====
/-
  The array the kernel's region leaves behind is the stacked product. The grid has 8 × 16 points; point (bi, bj)
  reads rows bi·256 … bi·256 + 255 of the left factor (all 4096 columns) and columns bj·256 … bj·256 + 255 of the
  right factor (all 4096 rows), and writes back the [256, 30, 256] block of the output at block position (bi, 0, bj).
  Position (p, r, q) of that block holds the sum over k of left(bi·256 + p, k) · right(k, bj·256 + q), which is the
  stacked product at (bi·256 + p, r, bj·256 + q): each write-back is a block of ONE function of the two arguments.
  The 128 blocks tile the [2048, 30, 4096] array — position (i, r, n) lies in the block of point (i / 256, n / 256) —
  so after the last point the array is the stacked product everywhere.
-/
import proofs.«131856_j82454782148931_2_alg».proof.Proof.Gen.KernelIdeal.Frame
import proofs.«131856_j82454782148931_2_alg».proof.Proof.TileProduct
import proofs.«131856_j82454782148931_2_alg».proof.Proof.RepeatedProduct
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Blocks

open Cert.KernelIdeal Cert.KernelIdeal.Gen Cert.KernelIdeal.Tile Cert.RepeatedProduct Idealize.ShloMosaic.ValueIdx

variable (m : (ℓ : Loc nD τ sig) → Buf (Elt Ideal) ℓ)

theorem hz2 : (![0, 0] : Fin 2 → Nat) = fun _ => 0 := funext fun a => by fin_cases a <;> rfl
theorem hz3 : (![0, 0, 0] : Fin 3 → Nat) = fun _ => 0 := funext fun a => by fin_cases a <;> rfl

/-- The three index maps over the grid: the left block's row index is the output block's, the right block's
    column index is the output block's, every other block index is zero, and the output's stay in range. -/
theorem idx_facts : ∀ t : Fin cfg0.N, win0_0.index t (0 : Fin 2) = win0_2.index t (0 : Fin 3)
    ∧ win0_0.index t (1 : Fin 2) = 0
    ∧ win0_1.index t (0 : Fin 2) = 0
    ∧ win0_1.index t (1 : Fin 2) = win0_2.index t (2 : Fin 3)
    ∧ win0_2.index t (1 : Fin 3) = 0
    ∧ win0_2.index t (0 : Fin 3) ≤ 7
    ∧ win0_2.index t (2 : Fin 3) ≤ 15 :=
  (by decide +kernel : ∀ t : Fin grid0.N, _)

/-- Every block position (bi, 0, bj) with bi < 8, bj < 16 is some point's. -/
theorem idx_onto : ∀ (q0 : Fin 8) (q2 : Fin 16), ∃ t : Fin cfg0.N, win0_2.index t = ![q0.val, 0, q2.val] :=
  (by decide +kernel : ∀ (q0 : Fin 8) (q2 : Fin 16), ∃ t : Fin grid0.N, win0_2.index t = ![q0.val, 0, q2.val])

/-- Row p of the left block at point t is row (output block row)·256 + p of the left argument. -/
theorem lhs_block (c : Dev nD) (t : Fin cfg0.N) (p : Fin 256) (k : Fin 4096) (i : Fin 2048)
    (hi : i.val = win0_2.index t (0 : Fin 3) * 256 + p.val) :
    (iblk m c 0 t : Vec Ideal S256x4096 .f32) (ix2 p k) = (m ((c : Thread nD τ).loc main_arg0) : S2048x4096.Idx → EReal) (ix2 i k) := by
  obtain ⟨e0, e1, -⟩ := idx_facts t
  unfold iblk
  rw [View.read_apply]
  show V m c main_arg0 _ = m (c.tc.loc main_arg0) _
  rw [V_main_arg0]
  refine congrArg _ (funext fun a => Fin.ext ?_)
  match a with
  | ⟨0, _⟩ => show win0_0.index t (0 : Fin 2) * 256 + 1 * p.val = i.val; rw [e0, hi]; omega
  | ⟨1, _⟩ => show win0_0.index t (1 : Fin 2) * 4096 + 1 * k.val = k.val; rw [e1]; omega

/-- Column q of the right block at point t is column (output block column)·256 + q of the right argument. -/
theorem rhs_block (c : Dev nD) (t : Fin cfg0.N) (k : Fin 4096) (q : Fin 256) (n : Fin 4096)
    (hn : n.val = win0_2.index t (2 : Fin 3) * 256 + q.val) :
    (iblk m c 1 t : Vec Ideal S4096x256 .f32) (ix2 k q) = (m ((c : Thread nD τ).loc main_arg1) : S4096x4096.Idx → EReal) (ix2 k n) := by
  obtain ⟨-, -, e2, e3, -⟩ := idx_facts t
  unfold iblk
  rw [View.read_apply]
  show V m c main_arg1 _ = m (c.tc.loc main_arg1) _
  rw [V_main_arg1]
  refine congrArg _ (funext fun a => Fin.ext ?_)
  match a with
  | ⟨0, _⟩ => show win0_1.index t (0 : Fin 2) * 4096 + 1 * k.val = k.val; rw [e2]; omega
  | ⟨1, _⟩ => show win0_1.index t (1 : Fin 2) * 256 + 1 * q.val = n.val; rw [e3, hn]; omega

/-- What the body stores at a block position y is the stacked product at an array position i, once the rows of the
    left block the position reads are rows of a and the columns of the right block are columns of b. -/
theorem stored_at (x0 : Vec Ideal S256x4096 .f32) (x1 : Vec Ideal S4096x256 .f32) (a : Lhs) (b : Rhs)
    (y : S256x30x256.Idx) (i : S2048x30x4096.Idx)
    (ha : ∀ k : Fin 4096, x0 (ix2 (⟨(y 0).val, (y 0).isLt⟩ : Fin 256) k) = a (ix2 (⟨(i 0).val, (i 0).isLt⟩ : Fin 2048) k))
    (hb : ∀ k : Fin 4096, x1 (ix2 k (⟨(y 2).val, (y 2).isLt⟩ : Fin 256)) = b (ix2 k (⟨(i 2).val, (i 2).isLt⟩ : Fin 4096))) :
    k0_pay1 (F := Ideal) x0 x1 y = stacked a b i := by
  have hy : y = ix3 (⟨(y 0).val, (y 0).isLt⟩ : Fin 256) (⟨(y 1).val, (y 1).isLt⟩ : Fin 30) (⟨(y 2).val, (y 2).isLt⟩ : Fin 256) :=
    funext fun d => match d with | ⟨0, _⟩ => rfl | ⟨1, _⟩ => rfl | ⟨2, _⟩ => rfl
  refine (congrArg (k0_pay1 (F := Ideal) x0 x1) hy).trans ?_
  refine (stored_entry x0 x1 _ _ _).trans ?_
  unfold stacked entry
  exact Finset.sum_congr rfl fun k _ => by rw [ha k, hb k]

/-- What point t writes back is block t of the stacked product of the two arguments. -/
theorem flushed_eq (c : Dev nD) (t : Fin cfg0.N) :
    (dats m 0 c).flushed 2 t = ((cfg0.win 2).blk t).view.read (Elt Ideal)
      (stacked (m ((c : Thread nD τ).loc main_arg0)) (m ((c : Thread nD τ).loc main_arg1))) := by
  show (cfg0.win 2).cut (grid0.coords t) ((dats m 0 c).after 2 t) = _
  rw [after0_2]
  unfold out0_2
  rw [View.canon_unit_zero hz3]
  simp only [View.ld_unit_zero (S := S256x4096) hz2, View.ld_unit_zero (S := S4096x256) hz2]
  funext j
  rw [View.read_apply]
  refine stored_at (iblk m c 0 t) (iblk m c 1 t) _ _ j (((cfg0.win 2).blk t).view.emb j) (fun k => ?_) (fun k => ?_)
  · refine lhs_block m c t _ k _ ?_
    show win0_2.index t (0 : Fin 3) * 256 + 1 * (j 0).val = win0_2.index t (0 : Fin 3) * 256 + (j 0).val
    omega
  · refine rhs_block m c t k _ _ ?_
    show win0_2.index t (2 : Fin 3) * 256 + 1 * (j 2).val = win0_2.index t (2 : Fin 3) * 256 + (j 2).val
    omega

/-- An array position is in point t's block iff each coordinate is in the block's range on its axis. -/
theorem mem_blk (t : Fin cfg0.N) (i : S2048x30x4096.Idx) :
    i ∈ ((cfg0.win 2).blk t).view.set ↔ ∀ a : Fin 3, win0_2.index t a * S256x30x256.size a ≤ (i a).val ∧ (i a).val < win0_2.index t a * S256x30x256.size a + S256x30x256.size a := by
  show i ∈ ((View.whole main_v0).slice (win0_2.rect t)).set ↔ _
  rw [View.set_slice_whole, Rect.mem_set_unit]
  exact Iff.rfl

/-- The blocks tile the array: position (i, r, n) is in the block of the point at block position (i / 256, 0, n / 256). -/
theorem cover (i : S2048x30x4096.Idx) :
    ∃ t : Fin cfg0.N, (cfg0.win 2).flush t = true ∧ i ∈ ((cfg0.win 2).blk t).view.set := by
  have hi0 : (i 0).val < 2048 := (i 0).isLt
  have hi1 : (i 1).val < 30 := (i 1).isLt
  have hi2 : (i 2).val < 4096 := (i 2).isLt
  obtain ⟨t, ht⟩ := idx_onto ⟨(i 0).val / 256, by omega⟩ ⟨(i 2).val / 256, by omega⟩
  have q0 : win0_2.index t (0 : Fin 3) = (i 0).val / 256 := congrFun ht 0
  have q1 : win0_2.index t (1 : Fin 3) = 0 := congrFun ht 1
  have q2 : win0_2.index t (2 : Fin 3) = (i 2).val / 256 := congrFun ht 2
  refine ⟨t, flush0_2 t, ?_⟩
  rw [mem_blk]
  intro a
  match a with
  | ⟨0, _⟩ => show win0_2.index t (0 : Fin 3) * 256 ≤ (i 0).val ∧ (i 0).val < win0_2.index t (0 : Fin 3) * 256 + 256; omega
  | ⟨1, _⟩ => show win0_2.index t (1 : Fin 3) * 30 ≤ (i 1).val ∧ (i 1).val < win0_2.index t (1 : Fin 3) * 30 + 30; omega
  | ⟨2, _⟩ => show win0_2.index t (2 : Fin 3) * 256 ≤ (i 2).val ∧ (i 2).val < win0_2.index t (2 : Fin 3) * 256 + 256; omega

/-- The region's output array after the last point is the stacked product of the two arguments. -/
theorem final (c : Dev nD) : (dats m 0 c).arrAt 2 cfg0.N
    = stacked (m ((c : Thread nD τ).loc main_arg0)) (m ((c : Thread nD τ).loc main_arg1)) :=
  (dats m 0 c).arrAt_eq_of_cover 2 _ (fun t _ => flushed_eq m c t) cover

end Cert.KernelIdeal.Blocks

end
-- ==== Proof.KernelValue.lean ====
/-
  The kernel program's result is the repeated product. After its one region the program flattens the last two
  axes of the region's [2048, 30, 4096] output into [2048, 122880]. The region leaves the stacked product in that
  output (the blocks tile it), the flattening of the stacked product is the repeated product (position (r, n) of
  a slab is column r · 4096 + n), and the two argument arrays are staged as inputs only, so they end as they began.
-/
import proofs.«131856_j82454782148931_2_alg».proof.Proof.KernelBlocks
import Idealize.ShloMosaic.Lib.StableHlo.Run
import Idealize.ShloMosaic.Lib.Pipeline.FrameSuffix

noncomputable section

open Idealize.ShloMosaic Idealize.ShloMosaic.TcCoe Idealize.SL.Sem Idealize.ShloMosaic.StableHlo
open Idealize.ShloMosaic.Pipeline (Dat)

namespace Cert.KernelIdeal.Result

open Cert.KernelIdeal Cert.KernelIdeal.Gen Cert.KernelIdeal.Blocks Cert.RepeatedProduct Idealize.ShloMosaic.ValueIdx

variable (m : (ℓ : Loc nD τ sig) → Buf (Elt Ideal) ℓ) (ρ : Dev nD → PrngReg)

/-- The program's result buffer is an ordinary buffer of the core that the region neither reads nor writes. -/
theorem result_rest : main_v1 ∈ Pipeline.restRefs sig (cfgs 0).spec :=
  Pipeline.mem_restRefs_of main_v1 rfl (fun w => by fin_cases w <;> decide)

/-- What the flattening after the region writes into the result buffer: the repeated product of the arguments. -/
theorem tail_eq (c : Dev nD) :
    Pipeline.afterTail₀ cfgs (dats m) 0 (V0 m) [hostOps1] c main_v1
      = repeated (m ((c : Thread nD τ).loc main_arg0)) (m ((c : Thread nD τ).loc main_arg1)) := by
  -- the region's output array, as the flattening finds it, is the stacked product
  have hw : Pipeline.withArrays (cfgs 0).spec c (V0 m c) (fun w => (dats m 0 c).arrAt w (cfgs 0).N) (Proc.devRef .tc main_v0)
      = stacked (m ((c : Thread nD τ).loc main_arg0)) (m ((c : Thread nD τ).loc main_arg1)) :=
    (Pipeline.withArrays_arr spec0 launch0.win.arr_inj c _ _ 2).trans (final m c)
  unfold Pipeline.afterTail₀
  show StableHlo.after hostOps1 _ (Proc.devRef .tc main_v1) = _
  after_results
  refine Eq.trans ?_ (shapeCast_stacked _ _ shapeCasts_S2048x30x4096_S2048x122880)
  exact congrArg (fun x : S2048x30x4096.Idx → EReal => shapeCast S2048x122880 x shapeCasts_S2048x30x4096_S2048x122880) hw

/-- Every weakly fair execution of the kernel program ends with the result buffer at the repeated product of the
    two arguments, and the arguments unchanged. -/
theorem run : θ_run defs (onTc (τ := τ) (main (F := Ideal))) ⟨m, fun _ => 0, ρ⟩ fun r => ∀ c : Dev nD,
      r.2.mem ((c.tc : Thread nD τ).loc main_v1) = repeated (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).2 main_v1 result_rest).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Result

end
-- ==== Proof.lean ====
/-
  The kernel and its reference compute the same function over the extended reals: the matrix product of the
  [2048, 4096] argument and the [4096, 4096] argument, repeated 30 times side by side into a [2048, 122880] result.
  The kernel computes the product tile by tile — a [256, 4096] block of rows times a [4096, 256] block of columns
  into a zero accumulator — stores each [256, 256] tile 30 times along a middle axis of its output block, and
  flattens the [2048, 30, 4096] output at the end; the reference multiplies once, inserts unit axes, broadcasts one
  of them to 30 and flattens. At every output position (i, c) both read the one sum over k of
  x1(i, k) · x2(k, c mod 4096); the contraction axis is never split, so not even the order of the sum differs, and
  no law of the extended reals that fails at infinities is needed: the precondition is not used.
  The idealization rewrote nothing of the kernel, so the kernel is its own idealization.
-/
import proofs.«131856_j82454782148931_2_alg».proof.Defs
import proofs.«131856_j82454782148931_2_alg».proof.Proof.Gen.Kernel
import proofs.«131856_j82454782148931_2_alg».proof.Proof.Gen.Kernel.Skeleton
import proofs.«131856_j82454782148931_2_alg».proof.Proof.Gen.Kernel.Launch
import proofs.«131856_j82454782148931_2_alg».proof.Proof.Gen.Kernel.Points
import proofs.«131856_j82454782148931_2_alg».proof.Proof.Gen.Kernel.Frame
import proofs.«131856_j82454782148931_2_alg».proof.Proof.Gen.KernelIdeal
import proofs.«131856_j82454782148931_2_alg».proof.Proof.Gen.KernelIdeal.Skeleton
import proofs.«131856_j82454782148931_2_alg».proof.Proof.Gen.KernelIdeal.Launch
import proofs.«131856_j82454782148931_2_alg».proof.Proof.Gen.KernelIdeal.Points
import proofs.«131856_j82454782148931_2_alg».proof.Proof.Gen.KernelIdeal.Frame
import proofs.«131856_j82454782148931_2_alg».proof.Proof.Gen.ReferenceIdeal
import proofs.«131856_j82454782148931_2_alg».proof.Proof.Gen.ReferenceIdeal.Run
import proofs.«131856_j82454782148931_2_alg».proof.Proof.Gen.ReferenceIdeal.Read
import proofs.«131856_j82454782148931_2_alg».proof.Proof.Gen.Pre_finite_inputs
import proofs.«131856_j82454782148931_2_alg».proof.Proof.RepeatedProduct
import proofs.«131856_j82454782148931_2_alg».proof.Proof.ReferenceValue
import proofs.«131856_j82454782148931_2_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference runs and leaves its arguments unchanged: its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation of the kernel. -/
theorem preserves : Cert.preserves_Kernel_KernelIdeal := trivial

/-- From arguments that agree, the kernel program and the reference both end with the result at the repeated
    product of the arguments: the kernel by its blocks and the final flattening, the reference by reading its four
    operations at a position. -/
theorem algebraic : Cert.algebraic_KernelIdeal_ReferenceIdeal := by
  intro m ρ m' ρ' _ hagree
  refine ⟨fun c => Cert.RepeatedProduct.repeated
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v3_eq _ _).trans ?_
  refine (Cert.ReferenceIdeal.RefValue.result_eq _ _).trans ?_
  rw [(hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
